-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1600000 32) (main_arg2 : IVec S1600000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S10000x64 : Shape := ⟨2, ![10000, 64]⟩

abbrev nBuf : Space → Nat
  | .hbm => 42
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_1_0_0_n_n_wf : DotDims.WF S10000x64 S64x64 S10000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_1_0_0_n_n : DotDims S10000x64 S64x64 S10000x64 where
  lhsContracting := [1]
  rhsContracting := [1]
  lhsNonContracting := [0]
  rhsNonContracting := [0]
  lhsBatch := []
  rhsBatch := []
  wf := dot_S10000x64_S64x64_S10000x64_1_1_0_0_n_n_wf

abbrev win0_0 : Pipeline.Window sig grid0 :=
  Pipeline.Window.ofSpec (Memref.whole main_v23) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 47
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x64, .f32⟩
  | .hbm, ⟨14, _⟩ => ⟨S_, .f32⟩
  | .hbm, ⟨15, _⟩ => ⟨S100000x64, .f32⟩
  | .hbm, ⟨16, _⟩ => ⟨S1600000x1, .i32⟩
  | .hbm, ⟨17, _⟩ => ⟨S100000x64, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S100000x1, .f32⟩
  | .hbm, ⟨27, _⟩ => ⟨S100000x1, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S_, .f32⟩
  | .hbm, ⟨36, _⟩ => ⟨S100000x64, .i1⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S_, .f32⟩
  | .hbm, ⟨45, _⟩ => ⟨S100000x64, .f32⟩
  | .hbm, ⟨46, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.MeanLayer.lean ====
import Idealize.ShloMosaic.Lib.ValueIdx
import Idealize.ShloMosaic.Lib.IdealHost
import Idealize.ShloMosaic.PureOps.Ideal.Laws

/-!
# A mean over incoming edges followed by a dense layer with a rectifier: the specification

The program averages, at every node `n`, the feature rows carried by the edges that end at `n` — the sum `s(n, ·)`
of those rows divided by `max(deg n, 1)`, and zero where no edge ends —, then applies one dense layer row by row,
`out(n, j) = max(∑ k < 64, h(n, k) · W(j, k) + b(j), 0)`.

Two things are stated here, over the extended reals and with no program in sight.

* `rowOut` / `layer`: the dense layer with its rectifier. Entry `(n, j)` depends on row `n` of `h` alone, so cutting
  `h` into tiles of rows and treating each tile by itself gives the same entries as treating `h` whole.
* `scale_eq`: multiplying the sum by the reciprocal `1 / max(deg, 1)` (or by zero where the mask bit is off) is
  dividing it by `max(deg, 1)` (or answering zero where the bit is off). The divisor `max(deg, 1)` is at least one, so
  it is never zero, whatever extended real `deg` is; off zero a quotient IS the product with the inverse, and
  `1 · d⁻¹ = d⁻¹`; a product with zero is zero. Nothing needs to be finite.
-/

noncomputable section

namespace Cert.MeanLayer

open Idealize.ShloMosaic Idealize.ShloMosaic.ValueIdx
open scoped BigOperators

/-- One row through the dense layer and the rectifier: entry `j` is `max(∑ k, r k · W(j, k) + b j, 0)`, the zero kept as
    the word the programs print. -/
def rowOut (r : Fin 64 → EReal) (W : (⟨2, ![64, 64]⟩ : Shape).Idx → EReal) (b : Fin 64 → EReal) (j : Fin 64) : EReal :=
  max (∑ k : Fin 64, r k * W (ix2 j k) + b j) (Ideal.ofBits .f32 0x00000000#32)

/-- The layer on an array of `N` rows: entry `(n, j)` is `rowOut` of row `n`. -/
def layer {N : Nat} (h : (⟨2, ![N, 64]⟩ : Shape).Idx → EReal) (W : (⟨2, ![64, 64]⟩ : Shape).Idx → EReal) (b : Fin 64 → EReal) :
    (⟨2, ![N, 64]⟩ : Shape).Idx → EReal :=
  fun i => rowOut (fun k => h (ix2 (i 0) k)) W b (i 1)

/-- The layer at an index given by its coordinates. -/
theorem layer_ix2 {N : Nat} (h : (⟨2, ![N, 64]⟩ : Shape).Idx → EReal) (W : (⟨2, ![64, 64]⟩ : Shape).Idx → EReal) (b : Fin 64 → EReal)
    (n : Fin N) (j : Fin 64) : layer h W b (ix2 n j) = rowOut (fun k => h (ix2 n k)) W b j := rfl

/-- The divisor of the mean, `max(deg, 1)`, is not zero: it is at least one. -/
theorem max_one_ne_zero (deg : EReal) : max deg (Ideal.ofBits .f32 0x3F800000#32) ≠ 0 := by
  rw [Ideal.ofBits_one_f32]
  exact ne_of_gt (lt_of_lt_of_le zero_lt_one (le_max_right deg 1))

/-- Scaling by the selected reciprocal is selecting the quotient: with `c` the mask bit (whatever it is),
    `x · (c ? 1 / max(deg, 1) : 0) = (c ? x / max(deg, 1) : 0)` on the extended reals. -/
theorem scale_eq (x deg : EReal) (c : BitVec 1) :
    x * Scalar.select c (Ideal.div (Ideal.ofBits .f32 0x3F800000#32) (max deg (Ideal.ofBits .f32 0x3F800000#32)))
          (Ideal.ofBits .f32 0x00000000#32)
      = Scalar.select c (Ideal.div x (max deg (Ideal.ofBits .f32 0x3F800000#32))) (Ideal.ofBits .f32 0x00000000#32) := by
  by_cases hc : c = 1#1
  · subst hc
    rw [select_one, select_one]
    have h1 : Ideal.ofBits .f32 0x3F800000#32 = (1 : EReal) := Ideal.ofBits_one_f32
    rw [show Ideal.div (Ideal.ofBits .f32 0x3F800000#32) (max deg (Ideal.ofBits .f32 0x3F800000#32))
        = Ideal.div 1 (max deg (Ideal.ofBits .f32 0x3F800000#32)) by rw [h1]]
    exact Ideal.mul_one_div (max_one_ne_zero deg)
  · have h0 := eq_zero_of_ne_one hc
    subst h0
    rw [select_zero, select_zero, Ideal.ofBits_zero_f32, mul_zero]

end Cert.MeanLayer

end
-- ==== Proof.LibDotRows.lean ====
import Idealize.ShloMosaic.Lib.ValueIdx
import Idealize.ShloMosaic.PureOps.Ideal.Laws

/-!
# A product of rows with rows, read at an index

For dimension numbers that contract the second axis of BOTH operands and have no batch axis, the product
`[M, K] × [N, K] → [M, N]` (an einsum `mk,nk->mn`: the right operand is used transposed without being
transposed) at the index `(p, q)` is the plain sum `∑ k < K, l (p, k) · r (q, k)` over the extended reals —
for the matrix unit's product into a zero accumulator and for the host's `dot_general` alike, whatever
`M`, `K`, `N` are. Entry `(p, q)` depends on row `p` of the left operand and row `q` of the right one only,
so a program that cuts the left operand into row tiles computes the same entries as one that does not.
-/

noncomputable section

namespace Cert.LibDotRows

open Idealize.ShloMosaic Idealize.ShloMosaic.ValueIdx
open scoped BigOperators

/-- The dimension numbers of a rows-with-rows product: axis 1 of the left operand against axis 1 of the right
    operand, axis 0 of each kept (the left one first), no batch axis. -/
structure RowsRows {M K N : Nat} (d : DotDims ⟨2, ![M, K]⟩ ⟨2, ![N, K]⟩ ⟨2, ![M, N]⟩) : Prop where
  lc : d.lhsContracting = [1]
  rc : d.rhsContracting = [1]
  ln : d.lhsNonContracting = [0]
  rn : d.rhsNonContracting = [0]
  lb : d.lhsBatch = []
  rb : d.rhsBatch = []

section Spelt

variable {M K N : Nat}
  (wf : DotDims.WF (⟨2, ![M, K]⟩ : Shape) (⟨2, ![N, K]⟩ : Shape) (⟨2, ![M, N]⟩ : Shape) [1] [1] [0] [0] [] [])

/-- The record with its six lists written out. -/
abbrev spelt : DotDims ⟨2, ![M, K]⟩ ⟨2, ![N, K]⟩ ⟨2, ![M, N]⟩ := ⟨[1], [1], [0], [0], [], [], wf⟩

/-- The left operand is read in the result's row. -/
theorem spelt_lhs_row (j : (⟨2, ![M, N]⟩ : Shape).Idx) (k : (spelt wf).contr.Idx) :
    ((spelt wf).lhsIdx j k 0).val = (j 0).val := by
  unfold DotDims.lhsIdx
  rw [dif_neg (show ¬ (0 : Fin 2) ∈ (spelt wf).lhsBatch from List.not_mem_nil),
    dif_pos (show (0 : Fin 2) ∈ (spelt wf).lhsNonContracting from List.mem_singleton.mpr rfl)]
  rfl

/-- The right operand is read in the ROW numbered by the result's column. -/
theorem spelt_rhs_row (j : (⟨2, ![M, N]⟩ : Shape).Idx) (k : (spelt wf).contr.Idx) :
    ((spelt wf).rhsIdx j k 0).val = (j 1).val := by
  unfold DotDims.rhsIdx
  rw [dif_neg (show ¬ (0 : Fin 2) ∈ (spelt wf).rhsBatch from List.not_mem_nil),
    dif_pos (show (0 : Fin 2) ∈ (spelt wf).rhsNonContracting from List.mem_singleton.mpr rfl)]
  rfl

/-- The contraction's sum, re-indexed by the one contracted coordinate. -/
theorem spelt_sum (l : (⟨2, ![M, K]⟩ : Shape).Idx → EReal) (r : (⟨2, ![N, K]⟩ : Shape).Idx → EReal) (p : Fin M) (q : Fin N) :
    ∑ k : (spelt wf).contr.Idx, l ((spelt wf).lhsIdx (ix2 p q) k) * r ((spelt wf).rhsIdx (ix2 p q) k)
      = ∑ k : Fin K, l (ix2 p k) * r (ix2 q k) := by
  rw [← Equiv.sum_comp (contrEquiv1 (spelt wf) K rfl rfl).symm]
  refine Finset.sum_congr rfl fun k _ => ?_
  have hk := contrEquiv1_symm_val (spelt wf) K rfl rfl k
  have el : (spelt wf).lhsIdx (ix2 p q) ((contrEquiv1 (spelt wf) K rfl rfl).symm k) = ix2 p k :=
    funext fun a => Fin.ext (by
      match a with
      | ⟨0, _⟩ => exact spelt_lhs_row wf _ _
      | ⟨1, _⟩ => exact ((spelt wf).lhsIdx_val_of_single rfl _ _).trans hk)
  have er : (spelt wf).rhsIdx (ix2 p q) ((contrEquiv1 (spelt wf) K rfl rfl).symm k) = ix2 q k :=
    funext fun a => Fin.ext (by
      match a with
      | ⟨0, _⟩ => exact spelt_rhs_row wf _ _
      | ⟨1, _⟩ => exact ((spelt wf).rhsIdx_val_of_single rfl _ _).trans hk)
  rw [el, er]

end Spelt

/-- The sum over the contraction index of a rows-with-rows product is the sum over `k < K` of the left operand at
    `(p, k)` times the right operand at `(q, k)`. -/
theorem sum_contr {M K N : Nat} (d : DotDims ⟨2, ![M, K]⟩ ⟨2, ![N, K]⟩ ⟨2, ![M, N]⟩) (h : RowsRows d)
    (l : (⟨2, ![M, K]⟩ : Shape).Idx → EReal) (r : (⟨2, ![N, K]⟩ : Shape).Idx → EReal) (p : Fin M) (q : Fin N) :
    ∑ k : d.contr.Idx, l (d.lhsIdx (ix2 p q) k) * r (d.rhsIdx (ix2 p q) k) = ∑ k : Fin K, l (ix2 p k) * r (ix2 q k) := by
  obtain ⟨lc, rc, ln, rn, lb, rb, wf⟩ := d
  obtain ⟨h1, h2, h3, h4, h5, h6⟩ := h
  dsimp only at h1 h2 h3 h4 h5 h6
  subst h1 h2 h3 h4 h5 h6
  exact spelt_sum wf l r p q

/-- The matrix unit's product into a zero accumulator, at an index: the plain sum over the shared second axis. -/
theorem matmul_zero_apply {M K N : Nat} {φ₁ φ₂ : FTy} (d : DotDims ⟨2, ![M, K]⟩ ⟨2, ![N, K]⟩ ⟨2, ![M, N]⟩) (h : RowsRows d)
    (prec : Option ContractPrecision) (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) :=
  (Ideal.matmul_constant_zero_apply d prec lhs rhs (ix2 p q)).trans (sum_contr d h lhs rhs p q)

/-- The host's `dot_general` at an index: the same sum, whatever the schedule key. -/
theorem dotGeneral_apply {M K N : Nat} {φ₁ φ₂ : FTy} (d : DotDims ⟨2, ![M, K]⟩ ⟨2, ![N, K]⟩ ⟨2, ![M, N]⟩) (h : RowsRows d)
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) :=
  (Ideal.dotGeneral_apply d prec sched lhs rhs (ix2 p q)).trans (sum_contr d h lhs rhs p q)

end Cert.LibDotRows

end
-- ==== Proof.TileBody.lean ====
import proofs.«160926_j49074296324573_2_alg».proof.Proof.Gen.KernelIdeal.Skeleton
import proofs.«160926_j49074296324573_2_alg».proof.Proof.MeanLayer
import proofs.«160926_j49074296324573_2_alg».proof.Proof.LibDotRows
import Idealize.ShloMosaic.Lib.ValueLayout
import Idealize.ShloMosaic.Lib.Pipeline.Value

/-!
# What the kernel body stores, entry by entry

The body loads a tile of 10000 rows of the averaged features, the whole weight matrix and the bias row, and stores
`max(tile · Wᵀ + bias, 0)`: the matrix unit's product contracts the second axis of both operands (the weight is used
transposed without being transposed) into a zero accumulator, the two roundings to bf16 before it are the identity on
the extended reals, the bias row `[1, 64]` is repeated down the tile, and the rectifier is a maximum with the zero
word. So entry `(p, q)` of the stored tile is `rowOut` of the tile's row `p` — the dense layer of the specification
applied to that row alone.
-/

noncomputable section

namespace Cert.KernelIdeal.TileBody

open Cert.KernelIdeal Cert.KernelIdeal.Gen Idealize.ShloMosaic Idealize.ShloMosaic.ValueIdx
open scoped BigOperators

/-- The product's dimension numbers: axis 1 of the tile against axis 1 of the weight, axis 0 of each kept. -/
theorem rowsRows : Cert.LibDotRows.RowsRows dot_S10000x64_S64x64_S10000x64_1_1_0_0_n_n := ⟨rfl, rfl, rfl, rfl, rfl, rfl⟩

/-- The stored value at `(p, q)`: the dense layer and rectifier of the tile's row `p`, against the loaded weight and the
    loaded bias row. -/
theorem pay_apply (x0 : Vec Ideal S10000x64 .f32) (x3 : Vec Ideal S64x64 .f32) (x6 : Vec Ideal S1x64 .f32) (p : Fin 10000) (q : Fin 64) :
    k0_pay1 (F := Ideal) x0 x3 x6 (ix2 p q)
      = Cert.MeanLayer.rowOut (fun k => x0 (ix2 p k)) x3 (fun j => x6 (ix2 (0 : Fin 1) j)) q := by
  have e1 : FloatOps.matmul dot_S10000x64_S64x64_S10000x64_1_1_0_0_n_n none
        (truncf .bf16 (shapeCast S10000x64 x0 shapeCasts_S10000x64_S10000x64) bitsLt_bf16_f32 : FVec Ideal S10000x64 .bf16)
        (truncf .bf16 x3 bitsLt_bf16_f32 : FVec Ideal S64x64 .bf16) (constant S10000x64 .f32 0x00000000#32) (ix2 p q)
      = ∑ k : Fin 64, x0 (ix2 p k) * x3 (ix2 q k) := by
    refine (Cert.LibDotRows.matmul_zero_apply dot_S10000x64_S64x64_S10000x64_1_1_0_0_n_n rowsRows none _ _ p q).trans ?_
    rw [shapeCast_self]
    rfl
  have e2 : broadcastTo S10000x64 (shapeCast S1x64 x6 shapeCasts_S1x64_S1x64) broadcasts_S1x64_S10000x64 (ix2 p q)
      = x6 (ix2 (0 : Fin 1) q) := by
    refine (broadcastTo_1b_ab_apply _ broadcasts_S1x64_S10000x64 p q).trans ?_
    rw [shapeCast_self]
  unfold k0_pay1 Cert.MeanLayer.rowOut
  exact congrArg₂ max (congrArg₂ (· + ·) e1 e2) rfl

end Cert.KernelIdeal.TileBody

end
-- ==== Proof.KernelMean.lean ====
import proofs.«160926_j49074296324573_2_alg».proof.Proof.Gen.KernelIdeal.Frame
import Idealize.ShloMosaic.Lib.StableHlo.Run
import Idealize.ShloMosaic.Lib.IdealHost
import Idealize.ShloMosaic.Lib.ValueLayout
import Idealize.ShloMosaic.PureOps.Ideal.Laws

/-!
# The arrays the kernel's region finds: the averaged features and the bias row

Before the region the host gathers a feature row per edge, adds the rows at their destinations (`summed`), counts the
edges per destination by adding ones (`deg`), forms per node the weight `deg > 0 ? 1 / max(deg, 1) : 0` (`weight`),
repeats it along each row and multiplies: `meanK`. The gather and the two accumulating scatters are kept closed — the
reference spells the very same three operations of the same arguments, and nothing here depends on what they compute.
The bias vector is stood up as one row.

`meanK_apply` reads the product at `(n, k)`: the sum's entry times node `n`'s weight.
-/

noncomputable section

namespace Cert.KernelIdeal.HostMean

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-- Per node, the sum of the feature rows carried by the edges that end there (source indices below zero wrapped once). -/
def summed (x0 : (⟨S100000x64, .f32⟩ : BufTy).Contents (Elt F)) (x1 x2 : (⟨S1600000, .i32⟩ : BufTy).Contents (Elt F)) :
    (⟨S100000x64, .f32⟩ : BufTy).Contents (Elt F) :=
  Host.scatterAdd (F := F) scatter_S100000x64_S1600000x1_S1600000x64_1_0_0_1
    (broadcastInDim S100000x64 ![] bcast_S_S100000x64 (constant (F := F) S_ .f32 0x00000000#32))
    (broadcastInDim S1600000x1 ![0] bcast_S1600000_S1600000x1_0 x2)
    (Host.gather gather_S100000x64_S1600000x1_S1600000x64_1_0_n_n_0_1_164 x0
      (broadcastInDim S1600000x1 ![0] bcast_S1600000_S1600000x1_0
        (select (cmpi .slt x1 (broadcastInDim S1600000 ![] bcast_S_S1600000 (constantI S_ 32 0#32)))
          (addi x1 (broadcastInDim S1600000 ![] bcast_S_S1600000 (constantI S_ 32 100000#32))) x1)))

/-- Per node, the number of edges that end there: ones added at the destinations. -/
def deg (x2 : (⟨S1600000, .i32⟩ : BufTy).Contents (Elt F)) : (⟨S100000, .f32⟩ : BufTy).Contents (Elt F) :=
  Host.scatterAdd (F := F) scatter_S100000_S1600000x1_S1600000_n_0_0_1
    (broadcastInDim S100000 ![] bcast_S_S100000 (constant (F := F) S_ .f32 0x00000000#32))
    (broadcastInDim S1600000x1 ![0] bcast_S1600000_S1600000x1_0 x2)
    (broadcastInDim S1600000 ![] bcast_S_S1600000 (constant (F := F) S_ .f32 0x3F800000#32))

/-- Per node, the factor of the mean: the reciprocal of `max(deg, 1)` where an edge ends, zero elsewhere. -/
def weight (x2 : (⟨S1600000, .i32⟩ : BufTy).Contents (Elt F)) : (⟨S100000, .f32⟩ : BufTy).Contents (Elt F) :=
  select (cmpf (F := F) .ogt (deg x2) (broadcastInDim S100000 ![] bcast_S_S100000 (constant (F := F) S_ .f32 0x00000000#32)))
    (Host.divf (F := F) (broadcastInDim S100000 ![] bcast_S_S100000 (constant (F := F) S_ .f32 0x3F800000#32))
      (maximumf (deg x2) (broadcastInDim S100000 ![] bcast_S_S100000 (constant (F := F) S_ .f32 0x3F800000#32))))
    (broadcastInDim S100000 ![] bcast_S_S100000 (id (constant (F := F) S_ .f32 0x00000000#32)))

/-- The averaged features: the sums, each row scaled by its node's weight. -/
def meanK (x0 : (⟨S100000x64, .f32⟩ : BufTy).Contents (Elt F)) (x1 x2 : (⟨S1600000, .i32⟩ : BufTy).Contents (Elt F)) :
    (⟨S100000x64, .f32⟩ : BufTy).Contents (Elt F) :=
  mulf (F := F) (φ := .f32) (summed x0 x1 x2)
    (broadcastInDim S100000x64 ![0, 1] bcast_S100000x1_S100000x64_0_1 (broadcastInDim S100000x1 ![0] bcast_S100000_S100000x1_0 (weight x2)))

variable (m : (ℓ : Loc nD τ sig) → Buf (Elt F) ℓ)

set_option maxHeartbeats 2000000 in
/-- The first window's array when the region is entered: the averaged features of the argument arrays. -/
theorem V_main_v23 (c : Dev nD) :
    (V (F := F) m c main_v23 : (⟨S100000x64, .f32⟩ : BufTy).Contents (Elt F))
      = meanK (F := F) (m ((c : Thread nD τ).loc main_arg0)) (m ((c : Thread nD τ).loc main_arg1)) (m ((c : Thread nD τ).loc main_arg2)) := by
  dsimp only [V]
  simp only [hostOps0, hostOps0_1, hostOps0_2, List.flatten_cons, List.flatten_nil, List.append_nil, List.cons_append, List.nil_append]
  after_results_simp
  rfl

/-- The third window's array when the region is entered: the bias vector as one row. -/
theorem V_main_v24 (c : Dev nD) :
    (V (F := F) m c main_v24 : (⟨S1x64, .f32⟩ : BufTy).Contents (Elt F))
      = shapeCast S1x64 (m ((c : Thread nD τ).loc main_arg4)) shapeCasts_S64_S1x64 := by
  dsimp only [V]
  simp only [hostOps0, hostOps0_1, hostOps0_2, List.flatten_cons, List.flatten_nil, List.append_nil, List.cons_append, List.nil_append]
  after_results
  rfl

/-- The bias row at `(0, j)` is the bias vector at `j`. -/
theorem V_main_v24_apply (c : Dev nD) (j : Fin 64) :
    (V (F := F) m c main_v24 : (⟨S1x64, .f32⟩ : BufTy).Contents (Elt F)) (ix2 (0 : Fin 1) j)
      = (m ((c : Thread nD τ).loc main_arg4) : (⟨S64, .f32⟩ : BufTy).Contents (Elt F)) (ix1 j) := by
  rw [V_main_v24]
  exact shapeCast_a_1a_apply _ shapeCasts_S64_S1x64 (0 : Fin 1) j

/-- The averaged features at `(n, k)`: the sum's entry times node `n`'s weight, the weight spelt out. -/
theorem meanK_apply (x0 : (⟨S100000x64, .f32⟩ : BufTy).Contents (Elt Ideal)) (x1 x2 : (⟨S1600000, .i32⟩ : BufTy).Contents (Elt Ideal))
    (n : Fin 100000) (k : Fin 64) :
    meanK (F := Ideal) x0 x1 x2 (ix2 n k)
      = summed (F := Ideal) x0 x1 x2 (ix2 n k)
        * Scalar.select (FloatOps.cmpf (F := Ideal) .ogt (deg (F := Ideal) x2 (ix1 n)) (Ideal.ofBits .f32 0x00000000#32))
            (Ideal.div (Ideal.ofBits .f32 0x3F800000#32) (max (deg (F := Ideal) x2 (ix1 n)) (Ideal.ofBits .f32 0x3F800000#32)))
            (Ideal.ofBits .f32 0x00000000#32) := by
  have e1 : (broadcastInDim S100000x64 ![0, 1] bcast_S100000x1_S100000x64_0_1
        (broadcastInDim S100000x1 ![0] bcast_S100000_S100000x1_0 (weight (F := Ideal) x2))) (ix2 n k)
      = (broadcastInDim S100000x1 ![0] bcast_S100000_S100000x1_0 (weight (F := Ideal) x2)) (ix2 n (0 : Fin 1)) :=
    broadcastInDim_apply _ bcast_S100000x1_S100000x64_0_1 _ (ix2 n k) (ix2 n (0 : Fin 1)) (fun a => match a with
      | ⟨0, _⟩ => by show n.val = if (100000 : Nat) = 1 then 0 else n.val; rw [if_neg (by decide)]
      | ⟨1, _⟩ => by show 0 = if (1 : Nat) = 1 then 0 else k.val; rw [if_pos rfl])
  have e2 : (broadcastInDim S100000x1 ![0] bcast_S100000_S100000x1_0 (weight (F := Ideal) x2)) (ix2 n (0 : Fin 1)) = weight (F := Ideal) x2 (ix1 n) :=
    broadcastInDim_apply _ bcast_S100000_S100000x1_0 _ (ix2 n (0 : Fin 1)) (ix1 n) (fun a => match a with
      | ⟨0, _⟩ => by show n.val = if (100000 : Nat) = 1 then 0 else n.val; rw [if_neg (by decide)])
  have e3 : weight (F := Ideal) x2 (ix1 n)
      = Scalar.select (FloatOps.cmpf (F := Ideal) .ogt (deg (F := Ideal) x2 (ix1 n)) (Ideal.ofBits .f32 0x00000000#32))
          (Ideal.div (Ideal.ofBits .f32 0x3F800000#32) (max (deg (F := Ideal) x2 (ix1 n)) (Ideal.ofBits .f32 0x3F800000#32)))
          (Ideal.ofBits .f32 0x00000000#32) := by
    unfold weight
    rw [select_apply, cmpf_apply, hostDivf_apply, maximumf_apply]
    rfl
  unfold meanK
  rw [mulf_apply, e1, e2, e3]

end Cert.KernelIdeal.HostMean

end
-- ==== Proof.KernelFlush.lean ====
import proofs.«160926_j49074296324573_2_alg».proof.Proof.Gen.KernelIdeal.Value
import Idealize.ShloMosaic.Lib.ValueIdx

/-!
# What a grid point writes back, and where its blocks sit — whatever the float values are

The grid has ten points. At point `t` the window of the averaged features and the window of the result are both tile
`t` of 10000 rows, from column zero; the weight's and the bias row's windows are always the whole arrays (`idx_facts`,
decided over the ten points). So, entry by entry:

* row `p` of the features' tile at `t` is row `10000·t + p` of the array, the row of the result that entry `(p, q)` of the
  stored tile lands on, and the column is kept (`blk0_row`, `blk3_col`);
* the loaded weight is the weight array and the loaded bias row is the bias row (`blk1_whole`, `blk2_row`);
* what point `t` writes back is the body's one stored value of these blocks, so it is block `t` of any whole-array
  function that the stored value agrees with entry by entry (`flushed3_of`);
* the ten result blocks tile the result: row `r` lies in block `r / 10000` (`cover3`).

Nothing here looks inside the stored value: the statements hold at every float instance.
-/

noncomputable section

namespace Cert.KernelIdeal.Flush

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

theorem zero_off : (![0, 0] : Fin 2 → Nat) = fun _ => 0 := funext fun a => by fin_cases a <;> rfl

/-- The printed index maps, decided over the ten points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `y 0` of the features' tile at `t` is the array's row that entry `y` of the result's tile lands on. -/
theorem blk0_row (c : Dev nD) (t : Fin cfg0.N) (y : S10000x64.Idx) (k : Fin 64) :
    iblk m c 0 t (ix2 (y 0) k) = V m c main_v23 (ix2 ((((cfg0.win 3).blk t).view.emb y) 0) k) := by
  obtain ⟨f00, f01, -, -, -, -, f30, f31⟩ := idx_facts t
  show V m c main_v23 (((cfg0.win 0).blk t).view.emb (ix2 (y 0) k)) = V m c main_v23 (ix2 ((((cfg0.win 3).blk t).view.emb y) 0) k)
  refine congrArg _ (funext fun a => Fin.ext ?_)
  match a with
  | ⟨0, _⟩ => show win0_0.index t (0 : Fin 2) * 10000 + 1 * (y 0).val = win0_3.index t (0 : Fin 2) * 10000 + 1 * (y 0).val; omega
  | ⟨1, _⟩ => show win0_0.index t (1 : Fin 2) * 64 + 1 * k.val = k.val; omega

/-- Entry `y` of the result's tile lands in its own column. -/
theorem blk3_col (t : Fin cfg0.N) (y : S10000x64.Idx) : ((((cfg0.win 3).blk t).view.emb y) 1).val = (y 1).val := by
  obtain ⟨-, -, -, -, -, -, f30, f31⟩ := idx_facts t
  show win0_3.index t (1 : Fin 2) * 64 + 1 * (y 1).val = (y 1).val
  omega

/-- The weight's block at every point is the weight array. -/
theorem blk1_whole (c : Dev nD) (t : Fin cfg0.N) : iblk m c 1 t = V m c main_arg3 := by
  obtain ⟨-, -, f10, f11, -, -, -, -⟩ := idx_facts t
  funext z
  show V m c main_arg3 (((cfg0.win 1).blk t).view.emb z) = V m c main_arg3 z
  refine congrArg _ (funext fun a => Fin.ext ?_)
  match a with
  | ⟨0, _⟩ => show win0_1.index t (0 : Fin 2) * 64 + 1 * (z 0).val = (z 0).val; omega
  | ⟨1, _⟩ => show win0_1.index t (1 : Fin 2) * 64 + 1 * (z 1).val = (z 1).val; omega

/-- The bias row's block at every point is the bias row. -/
theorem blk2_row (c : Dev nD) (t : Fin cfg0.N) (j : Fin 64) :
    iblk m c 2 t (ix2 (0 : Fin 1) j) = V m c main_v24 (ix2 (0 : Fin 1) j) := by
  obtain ⟨-, -, -, -, f20, f21, -, -⟩ := idx_facts t
  show V m c main_v24 (((cfg0.win 2).blk t).view.emb (ix2 (0 : Fin 1) j)) = V m c main_v24 (ix2 (0 : Fin 1) j)
  refine congrArg _ (funext fun a => Fin.ext ?_)
  match a with
  | ⟨0, _⟩ => show win0_2.index t (0 : Fin 2) * 1 + 1 * 0 = 0; omega
  | ⟨1, _⟩ => show win0_2.index t (1 : Fin 2) * 64 + 1 * j.val = j.val; omega

/-- What point `t` writes back is block `t` of `G`, for any whole-array `G` that the body's stored value of the blocks at
    `t` agrees with entry by entry. -/
theorem flushed3_of (c : Dev nD) (t : Fin cfg0.N) (G : (⟨S100000x64, .f32⟩ : BufTy).Contents (Elt F))
    (hG : ∀ y : S10000x64.Idx, k0_pay1 (iblk m c 0 t) (iblk m c 1 t) (iblk m c 2 t) y = G (((cfg0.win 3).blk t).view.emb y)) :
    (dats m 0 c).flushed 3 t = ((cfg0.win 3).blk t).view.read (Elt F) G := by
  rw [Cert.KernelIdeal.Value.flushed3]
  unfold out0_3
  rw [View.canon_unit_zero zero_off]
  simp only [View.ld_unit_zero (S := S10000x64) zero_off, View.ld_unit_zero (S := S64x64) zero_off,
    View.ld_unit_zero (S := S1x64) zero_off]
  funext y
  exact hG y

/-- An index of the result is in point `t`'s block iff each coordinate is in the block's range on its axis. -/
theorem mem_blk3 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v25).slice (win0_3.rect t)).set ↔ _
  rw [View.set_slice_whole, Rect.mem_set_unit]
  exact Iff.rfl

/-- Every index of the result is in some point's block: row `r` is in block `r / 10000`. -/
theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 10000 < cfg0.N := by
    show (i 0).val / 10000 < grid0.N
    rw [N_0]; omega
  obtain ⟨-, -, -, -, -, -, f30, f31⟩ := idx_facts ⟨(i 0).val / 10000, hN⟩
  refine ⟨⟨(i 0).val / 10000, hN⟩, flush0_3 _, ?_⟩
  rw [mem_blk3]
  intro a
  match a with
  | ⟨0, _⟩ =>
    show win0_3.index ⟨(i 0).val / 10000, hN⟩ (0 : Fin 2) * 10000 ≤ (i 0).val
      ∧ (i 0).val < win0_3.index ⟨(i 0).val / 10000, hN⟩ (0 : Fin 2) * 10000 + 10000
    rw [f30]
    show (i 0).val / 10000 * 10000 ≤ (i 0).val ∧ (i 0).val < (i 0).val / 10000 * 10000 + 10000
    omega
  | ⟨1, _⟩ =>
    show win0_3.index ⟨(i 0).val / 10000, hN⟩ (1 : Fin 2) * 64 ≤ (i 1).val
      ∧ (i 1).val < win0_3.index ⟨(i 0).val / 10000, hN⟩ (1 : Fin 2) * 64 + 64
    rw [f31]
    omega

end Cert.KernelIdeal.Flush

end
-- ==== Proof.KernelValue.lean ====
import proofs.«160926_j49074296324573_2_alg».proof.Proof.Gen.KernelIdeal.Value
import proofs.«160926_j49074296324573_2_alg».proof.Proof.TileBody
import proofs.«160926_j49074296324573_2_alg».proof.Proof.KernelMean
import proofs.«160926_j49074296324573_2_alg».proof.Proof.KernelFlush

/-!
# The kernel's result array is the dense layer of the averaged features

An entry of the tile the body stores is `rowOut` of one row of the loaded tile (`TileBody.pay_apply`), and that row is
a row of the averaged features as the region finds them (`KernelFlush`); so what point `t` writes back is block `t` of
ONE whole-array function, the `layer` of the specification applied to the arrays the region finds. The ten blocks tile
the result, so after the run the result array is that function everywhere; and the arrays the region finds are the
averaged features `meanK` of the arguments, the weight and the bias (`KernelMean`).
-/

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- One entry of a stored tile is the layer's entry at the array index it lands on, when the tile's row is the array's
    row, the column is kept, and the loaded weight and bias are the arrays'. -/
theorem tile_entry (x0 : Vec Ideal S10000x64 .f32) (x3 : Vec Ideal S64x64 .f32) (x6 : Vec Ideal S1x64 .f32)
    (h : S100000x64.Idx → EReal) (W : S64x64.Idx → EReal) (b : Fin 64 → EReal) (y : S10000x64.Idx) (i : S100000x64.Idx)
    (hrow : ∀ k : Fin 64, x0 (ix2 (y 0) k) = h (ix2 (i 0) k)) (hcol : (i 1).val = (y 1).val)
    (hW : x3 = W) (hb : ∀ j : Fin 64, x6 (ix2 (0 : Fin 1) j) = b j) :
    k0_pay1 (F := Ideal) x0 x3 x6 y = Cert.MeanLayer.layer h W b i := by
  obtain ⟨p, q, rfl⟩ : ∃ (p : Fin 10000) (q : Fin 64), y = ix2 p q := ⟨y 0, y 1, eq_ix2 y⟩
  obtain ⟨n, j, rfl⟩ : ∃ (n : Fin 100000) (j : Fin 64), i = ix2 n j := ⟨i 0, i 1, eq_ix2 i⟩
  have hj : j = q := Fin.ext hcol
  subst hj hW
  rw [Cert.KernelIdeal.TileBody.pay_apply, Cert.MeanLayer.layer_ix2]
  have e1 : (fun k => x0 (ix2 p k)) = fun k => h (ix2 n k) := funext hrow
  have e2 : (fun j => x6 (ix2 (0 : Fin 1) j)) = b := funext hb
  rw [e1, e2]

/-- The result as one function of the arrays the region finds: the dense layer with its rectifier of the averaged
    features, against the weight and the bias row. -/
def result (c : Dev nD) : (⟨S100000x64, .f32⟩ : BufTy).Contents (Elt Ideal) :=
  Cert.MeanLayer.layer (V m c main_v23) (V m c main_arg3) (fun j => V m c main_v24 (ix2 (0 : Fin 1) j))

/-- What point `t` writes back is block `t` of `result`. -/
theorem flushed3_eq (c : Dev nD) (t : Fin cfg0.N) :
    (dats m 0 c).flushed 3 t = ((cfg0.win 3).blk t).view.read (Elt Ideal) (result m c) :=
  Cert.KernelIdeal.Flush.flushed3_of m c t (result m c) fun y =>
    tile_entry (iblk m c 0 t) (iblk m c 1 t) (iblk m c 2 t) (V m c main_v23) (V m c main_arg3)
      (fun j => V m c main_v24 (ix2 (0 : Fin 1) j)) y (((cfg0.win 3).blk t).view.emb y)
      (Cert.KernelIdeal.Flush.blk0_row m c t y) (Cert.KernelIdeal.Flush.blk3_col t y)
      (Cert.KernelIdeal.Flush.blk1_whole m c t) (Cert.KernelIdeal.Flush.blk2_row m c t)

/-- The result array after the run: the ten blocks tile it. -/
theorem final3 (c : Dev nD) : (dats m 0 c).arrAt 3 cfg0.N = result m c :=
  (dats m 0 c).arrAt_eq_of_cover 3 (result m c) (fun t _ => flushed3_eq m c t) Cert.KernelIdeal.Flush.cover3

/-- The result in terms of the argument arrays: the layer of the averaged features `meanK` against the weight and the
    bias vector. -/
theorem result_eq (c : Dev nD) :
    result m c = Cert.MeanLayer.layer
      (Cert.KernelIdeal.HostMean.meanK (F := Ideal) (m ((c : Thread nD τ).loc main_arg0)) (m ((c : Thread nD τ).loc main_arg1)) (m ((c : Thread nD τ).loc main_arg2)))
      (m ((c : Thread nD τ).loc main_arg3))
      (fun j => (m ((c : Thread nD τ).loc main_arg4) : (⟨S64, .f32⟩ : BufTy).Contents (Elt Ideal)) (ix1 j)) := by
  have e0 := Cert.KernelIdeal.HostMean.V_main_v23 (F := Ideal) m c
  have e1 := V_main_arg3 (F := Ideal) m c
  have e2 : (fun j : Fin 64 => (V (F := Ideal) m c main_v24 : (⟨S1x64, .f32⟩ : BufTy).Contents (Elt Ideal)) (ix2 (0 : Fin 1) j))
      = fun j => (m ((c : Thread nD τ).loc main_arg4) : (⟨S64, .f32⟩ : BufTy).Contents (Elt Ideal)) (ix1 j) :=
    funext fun j => Cert.KernelIdeal.HostMean.V_main_v24_apply (F := Ideal) m c j
  unfold result
  rw [e0, e1, e2]

/-- The kernel's run with the result array named: every weakly fair execution terminates with the result at the layer of
    the averaged features of the argument arrays, the arguments unchanged. -/
theorem run : θ_run defs (onTc (τ := τ) (main (F := Ideal))) ⟨m, fun _ => 0, ρ⟩ fun r => ∀ c : Dev nD,
      r.2.mem ((c : Thread nD τ).loc main_v25) = Cert.MeanLayer.layer
        (Cert.KernelIdeal.HostMean.meanK (F := Ideal) (m ((c : Thread nD τ).loc main_arg0)) (m ((c : Thread nD τ).loc main_arg1)) (m ((c : Thread nD τ).loc main_arg2)))
        (m ((c : Thread nD τ).loc main_arg3))
        (fun j => (m ((c : Thread nD τ).loc main_arg4) : (⟨S64, .f32⟩ : BufTy).Contents (Elt Ideal)) (ix1 j))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final3 m c).trans (result_eq m c)), (h c).2⟩)
    (Cert.KernelIdeal.Value.run_blocks m ρ)

end Cert.KernelIdeal.Whole

end
-- ==== Proof.MeanBridge.lean ====
import proofs.«160926_j49074296324573_2_alg».proof.Proof.KernelMean
import proofs.«160926_j49074296324573_2_alg».proof.Proof.RefReadP
import proofs.«160926_j49074296324573_2_alg».proof.Proof.MeanLayer

/-!
# The two programs average the same way

Both programs gather one feature row per edge, add the rows at their destinations and count the edges per
destination with the very same operations of the same arguments (`summed_eq`, `deg_eq`: the two spellings are one
term). They differ in how the sum becomes a mean: the kernel's program multiplies row `n` by the weight
`deg n > 0 ? 1 / max(deg n, 1) : 0`, the reference divides row `n` by `max(deg n, 1)` and then selects zero where
`deg n > 0` fails. Entry by entry these are the two sides of `MeanLayer.scale_eq`, with the comparison's bit as the mask.
-/

noncomputable section

namespace Cert.MeanBridge

open Idealize.ShloMosaic Idealize.ShloMosaic.ValueIdx
open Cert.ReferenceIdeal.ReadP

/-- The sums of the gathered rows are one term in both programs, whatever the float values are. -/
theorem summed_eq {F : FTy → Type} [FloatOps F] (x0 : (⟨Cert.KernelIdeal.S100000x64, .f32⟩ : BufTy).Contents (Elt F))
    (x1 x2 : (⟨Cert.KernelIdeal.S1600000, .i32⟩ : BufTy).Contents (Elt F)) :
    Cert.KernelIdeal.HostMean.summed (F := F) x0 x1 x2 = val_main_v9 (F := F) x0 x1 x2 := rfl

/-- The edge counts are one term in both programs, whatever the float values are. -/
theorem deg_eq {F : FTy → Type} [FloatOps F] (x2 : (⟨Cert.KernelIdeal.S1600000, .i32⟩ : BufTy).Contents (Elt F)) :
    Cert.KernelIdeal.HostMean.deg (F := F) x2 = val_main_v13 (F := F) x2 := rfl

/-- The reference's mask is read at node `n`. -/
theorem mask_idx (n : Fin 100000) (k : Fin 64) : idx_main_v14 (idx_main_call0_v1 (ix2 n k)) = ix1 n :=
  funext fun a => Fin.ext (by match a with | ⟨0, _⟩ => rfl)

/-- The reference's divisor is read at node `n`. -/
theorem div_idx (n : Fin 100000) (k : Fin 64) : idx_main_v19 (idx_main_v20 (ix2 n k)) = ix1 n :=
  funext fun a => Fin.ext (by match a with | ⟨0, _⟩ => rfl)

/-- The averaged features of the two programs are the same array. -/
theorem mean_eq (x0 : (⟨Cert.KernelIdeal.S100000x64, .f32⟩ : BufTy).Contents (Elt Ideal))
    (x1 x2 : (⟨Cert.KernelIdeal.S1600000, .i32⟩ : BufTy).Contents (Elt Ideal)) :
    Cert.KernelIdeal.HostMean.meanK (F := Ideal) x0 x1 x2 = val_main_v22 (F := Ideal) x0 x1 x2 := by
  funext i
  obtain ⟨n, k, rfl⟩ : ∃ (n : Fin 100000) (k : Fin 64), i = ix2 n k := ⟨i 0, i 1, eq_ix2 i⟩
  rw [Cert.KernelIdeal.HostMean.meanK_apply, Cert.MeanLayer.scale_eq, summed_eq, deg_eq]
  rw [val_main_v22_apply, val_main_call0_v1_apply, val_main_v16_apply, val_main_v14_apply, val_main_v15_apply,
    val_main_cst_3_apply, val_main_v21_apply, val_main_v20_apply, val_main_v19_apply, val_main_v18_apply,
    val_main_v17_apply, val_main_cst_4_apply, val_main_call0_v2_apply, val_main_call0_v0_apply, val_main_cst_5_apply,
    mask_idx, div_idx]
  rfl

end Cert.MeanBridge

end
-- ==== Proof.RefLayer.lean ====
import proofs.«160926_j49074296324573_2_alg».proof.Proof.RefReadP
import proofs.«160926_j49074296324573_2_alg».proof.Proof.MeanLayer

/-!
# The reference's last stages are the dense layer of the specification

After its averaged features `h` (stage `val_main_v22`) the reference transposes the weight, multiplies
`h · Wᵀ` with plain dimension numbers, adds the bias repeated down the rows and takes the maximum with zero. Read at
`(n, j)`: the product is `∑ k, h(n, k) · Wᵀ(k, j)`, and `Wᵀ(k, j) = W(j, k)`; the bias, stood up as a row and
repeated, is `b(j)`. That is `rowOut` of row `n` of `h`: the reference's result is `layer h W b`.
-/

noncomputable section

namespace Cert.ReferenceIdeal.RefLayer

open Cert.ReferenceIdeal Cert.ReferenceIdeal.ReadP Idealize.ShloMosaic Idealize.ShloMosaic.ValueIdx
open scoped BigOperators

/-- The product reads its left operand at `(n, k)`. -/
theorem lidx_eq (n : Fin 100000) (j k : Fin 64) : lidx_main_v24 (ix2 n j) k = ix2 n k :=
  funext fun a => Fin.ext (by match a with | ⟨0, _⟩ => rfl | ⟨1, _⟩ => rfl)

/-- The product reads the transposed weight at `(k, j)`, which is the weight at `(j, k)`. -/
theorem ridx_eq (n : Fin 100000) (j k : Fin 64) : idx_main_v23 (ridx_main_v24 (ix2 n j) k) = ix2 j k :=
  funext fun a => Fin.ext (by match a with | ⟨0, _⟩ => rfl | ⟨1, _⟩ => rfl)

/-- The repeated bias row reads the bias vector at the column. -/
theorem bidx_eq (n : Fin 100000) (j : Fin 64) : idx_main_v25 (idx_main_v26 (ix2 n j)) = ix1 j :=
  funext fun a => Fin.ext (by match a with | ⟨0, _⟩ => rfl)

/-- The reference's result is the dense layer with its rectifier of the reference's averaged features. -/
theorem result_eq (x0 : (⟨S100000x64, .f32⟩ : BufTy).Contents (Elt Ideal)) (x1 x2 : (⟨S1600000, .i32⟩ : BufTy).Contents (Elt Ideal))
    (x3 : (⟨S64x64, .f32⟩ : BufTy).Contents (Elt Ideal)) (x4 : (⟨S64, .f32⟩ : BufTy).Contents (Elt Ideal)) :
    val_main_v28 (F := Ideal) x0 x1 x2 x3 x4
      = Cert.MeanLayer.layer (val_main_v22 (F := Ideal) x0 x1 x2) x3 (fun j => x4 (ix1 j)) := by
  funext i
  obtain ⟨n, j, rfl⟩ : ∃ (n : Fin 100000) (j : Fin 64), i = ix2 n j := ⟨i 0, i 1, eq_ix2 i⟩
  rw [Cert.MeanLayer.layer_ix2]
  unfold Cert.MeanLayer.rowOut
  rw [val_main_v28_apply, val_main_v27_apply, val_main_v24_apply, val_main_call1_v0_apply, val_main_call1_cst_apply,
    val_main_v26_apply, val_main_v25_apply, bidx_eq]
  simp only [val_main_v23_apply, lidx_eq, ridx_eq]
  rfl

end Cert.ReferenceIdeal.RefLayer

end
-- ==== Proof.lean ====
/-
  A graph layer — the mean of the feature rows over each node's incoming edges, then a dense layer with a rectifier —
  computed two ways, and equal as extended reals.

  Both programs gather one feature row per edge, add the rows at the edges' destinations (`s`) and count the edges per
  destination (`deg`), by the same host operations of the same arguments; neither the gather nor the two accumulating
  scatters is opened anywhere in this proof. They then differ twice.

  * The mean. The kernel's program multiplies row `n` of `s` by the weight `deg n > 0 ? 1 / max(deg n, 1) : 0`; the
    reference divides row `n` by `max(deg n, 1)` and selects zero where `deg n > 0` fails. The divisor is at least one,
    hence never zero; off zero a quotient on the extended reals is the product with the inverse, so
    `x · (1 · d⁻¹) = x · d⁻¹`, and `x · 0 = 0`: the two means agree entry by entry, whatever `deg n` and `x` are
    (MeanLayer.scale_eq, MeanBridge.mean_eq). The precondition is not used.
  * The dense layer `max(h · Wᵀ + b, 0)`. The kernel runs it on ten tiles of 10000 rows, the matrix unit contracting the
    second axis of the tile and of the weight into a zero accumulator after two roundings to bf16 that are the identity on
    the extended reals, the bias stood up as one row and repeated down the tile. The reference transposes the weight and
    multiplies the whole array with plain dimension numbers. An entry `(n, j)` of either is
    `max(∑ k < 64, h(n, k) · W(j, k) + b(j), 0)` and depends on row `n` of `h` alone (MeanLayer.layer), so the tiles'
    results are the blocks of one whole-array function (KernelValue), which is the reference's (RefLayer).

  The three frames are the generated ones (the reference's is its generated run with the result dropped), and the
  idealization rewrote nothing, so `preserves` holds trivially.
-/
import proofs.«160926_j49074296324573_2_alg».proof.Defs
import proofs.«160926_j49074296324573_2_alg».proof.Proof.Gen.Kernel
import proofs.«160926_j49074296324573_2_alg».proof.Proof.Gen.Kernel.Skeleton
import proofs.«160926_j49074296324573_2_alg».proof.Proof.Gen.Kernel.Launch
import proofs.«160926_j49074296324573_2_alg».proof.Proof.Gen.Kernel.Points
import proofs.«160926_j49074296324573_2_alg».proof.Proof.Gen.Kernel.Frame
import proofs.«160926_j49074296324573_2_alg».proof.Proof.Gen.KernelIdeal
import proofs.«160926_j49074296324573_2_alg».proof.Proof.Gen.KernelIdeal.Skeleton
import proofs.«160926_j49074296324573_2_alg».proof.Proof.Gen.KernelIdeal.Launch
import proofs.«160926_j49074296324573_2_alg».proof.Proof.Gen.KernelIdeal.Points
import proofs.«160926_j49074296324573_2_alg».proof.Proof.Gen.KernelIdeal.Frame
import proofs.«160926_j49074296324573_2_alg».proof.Proof.Gen.ReferenceIdeal
import proofs.«160926_j49074296324573_2_alg».proof.Proof.Gen.Pre_finite_inputs
import proofs.«160926_j49074296324573_2_alg».proof.Proof.Gen.KernelIdeal.Value
import proofs.«160926_j49074296324573_2_alg».proof.Proof.RefRunP
import proofs.«160926_j49074296324573_2_alg».proof.Proof.RefReadP
import proofs.«160926_j49074296324573_2_alg».proof.Proof.MeanLayer
import proofs.«160926_j49074296324573_2_alg».proof.Proof.KernelValue
import proofs.«160926_j49074296324573_2_alg».proof.Proof.MeanBridge
import proofs.«160926_j49074296324573_2_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments both programs end with the dense layer of one and the same averaged
    features: the kernel's run names its result so (KernelValue.run), the reference's result is the layer of its own mean
    (RefLayer.result_eq), and the two means are one array (MeanBridge.mean_eq). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v28_eq, Cert.ReferenceIdeal.RefLayer.result_eq,
    (hagree c).1, (hagree c).2.1, (hagree c).2.2.1, (hagree c).2.2.2.1, (hagree c).2.2.2.2]
  rw [← Cert.MeanBridge.mean_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
